-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S1678839 : Shape := ⟨1, ![1678839]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S1678839 : S_.BroadcastsInDim S1678839 (![] : Fin 0 → Fin S1678839.rank)
  reducesTo_S1678839_S_d0 : S1678839.ReducesTo [0] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S1678839 .f32) (main_arg2 : FVec F S4096 .f32) (main_arg3 : IVec S1678839 32) (main_arg4 : IVec S1678839 32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S1678839 .f32 := Host.absf main_arg1
  let main_cst_0 : FVec F S_ .f32 := constant S_ .f32 0x7F800000#32
  let main_v5 : FVec F S1678839 .f32 := broadcastInDim S1678839 ![] bcast_S_S1678839 main_cst_0
  let main_v6 : IVec S1678839 1 := cmpf .olt main_v4 main_v5
  let main_c_1 : IVec S_ 1 := constantI S_ 1 1#1
  let main_v7 : IVec S_ 1 := (fun x v => Host.reduce IntOp.andi x v reducesTo_S1678839_S_d0 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S1678839 : Shape := ⟨1, ![1678839]⟩
abbrev S4096 : Shape := ⟨1, ![4096]⟩
abbrev S_ : Shape := ⟨0, ![]⟩
abbrev S4096x4096 : Shape := ⟨2, ![4096, 4096]⟩
abbrev S1678839x1 : Shape := ⟨2, ![1678839, 1]⟩
abbrev S1678839x2 : Shape := ⟨2, ![1678839, 2]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 30
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S1678839, .f32⟩
  | .hbm, ⟨2, _⟩ => ⟨S4096, .f32⟩
  | .hbm, ⟨3, _⟩ => ⟨S1678839, .i32⟩
  | .hbm, ⟨4, _⟩ => ⟨S1678839, .i32⟩
  | .hbm, ⟨5, _⟩ => ⟨S_, .f32⟩
  | .hbm, ⟨6, _⟩ => ⟨S4096x4096, .f32⟩
  | .hbm, ⟨7, _⟩ => ⟨S_, .i32⟩
  | .hbm, ⟨8, _⟩ => ⟨S1678839, .i32⟩
  | .hbm, ⟨9, _⟩ => ⟨S1678839, .i1⟩
  | .hbm, ⟨10, _⟩ => ⟨S_, .i32⟩
  | .hbm, ⟨11, _⟩ => ⟨S1678839, .i32⟩
  | .hbm, ⟨12, _⟩ => ⟨S1678839, .i32⟩
  | .hbm, ⟨13, _⟩ => ⟨S1678839, .i32⟩
  | .hbm, ⟨14, _⟩ => ⟨S_, .i32⟩
  | .hbm, ⟨15, _⟩ => ⟨S1678839, .i32⟩
  | .hbm, ⟨16, _⟩ => ⟨S1678839, .i1⟩
  | .hbm, ⟨17, _⟩ => ⟨S_, .i32⟩
  | .hbm, ⟨18, _⟩ => ⟨S1678839, .i32⟩
  | .hbm, ⟨19, _⟩ => ⟨S1678839, .i32⟩
  | .hbm, ⟨20, _⟩ => ⟨S1678839, .i32⟩
  | .hbm, ⟨21, _⟩ => ⟨S1678839x1, .i32⟩
  | .hbm, ⟨22, _⟩ => ⟨S1678839x1, .i32⟩
  | .hbm, ⟨23, _⟩ => ⟨S1678839x2, .i32⟩
  | .hbm, ⟨24, _⟩ => ⟨S4096x4096, .f32⟩
  | .hbm, ⟨25, _⟩ => ⟨S4096x4096, .f32⟩
  | .hbm, ⟨26, _⟩ => ⟨S8192x4096, .bf16⟩
  | .hbm, ⟨27, _⟩ => ⟨S4096x4096, .bf16⟩
  | .hbm, ⟨28, _⟩ => ⟨S1x4096, .f32⟩
  | .hbm, ⟨29, _⟩ => ⟨S8192x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S4096x4096 : S_.BroadcastsInDim S4096x4096 (![] : Fin 0 → Fin S4096x4096.rank)
  bcast_S_S1678839 : S_.BroadcastsInDim S1678839 (![] : Fin 0 → Fin S1678839.rank)
  bcast_S1678839_S1678839x1_0 : S1678839.BroadcastsInDim S1678839x1 (![0] : Fin 1 → Fin S1678839x1.rank)
  concatenates_S1678839x1_S1678839x1_S1678839x2_d1 : Shape.Concatenates [S1678839x1, S1678839x1] S1678839x2 1
  transposes_S4096x4096_S4096x4096_1_0 : S4096x4096.Transposes [1, 0] S4096x4096
  bitsLt_bf16_f32 : FTy.bits .bf16 < FTy.bits .f32
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  scatter_S4096x4096_S1678839x2_S1678839_n_01_01_1_wf : ScatterDims.WF S4096x4096 S1678839x2 S1678839 [] [0, 1] [0, 1] 1
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def scatter_S4096x4096_S1678839x2_S1678839_n_01_01_1 : ScatterDims S4096x4096 S1678839x2 S1678839 where
  updateWindowDims := []
  insertedWindowDims := [0, 1]
  scatterDimsToOperandDims := [0, 1]
  indexVectorDim := 1
  wf := scatter_S4096x4096_S1678839x2_S1678839_n_01_01_1_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v16) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S1678839 : Shape := ⟨1, ![1678839]⟩
abbrev S4096 : Shape := ⟨1, ![4096]⟩
abbrev S_ : Shape := ⟨0, ![]⟩
abbrev S4096x4096 : Shape := ⟨2, ![4096, 4096]⟩
abbrev S1678839x1 : Shape := ⟨2, ![1678839, 1]⟩
abbrev S1678839x2 : Shape := ⟨2, ![1678839, 2]⟩
abbrev S1x4096 : Shape := ⟨2, ![1, 4096]⟩

abbrev nBuf : Space → Nat
  | .hbm => 30
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1678839, .f32⟩
  | .hbm, ⟨2, _⟩ => ⟨S4096, .f32⟩
  | .hbm, ⟨3, _⟩ => ⟨S1678839, .i32⟩
  | .hbm, ⟨4, _⟩ => ⟨S1678839, .i32⟩
  | .hbm, ⟨5, _⟩ => ⟨S_, .f32⟩
  | .hbm, ⟨6, _⟩ => ⟨S4096x4096, .f32⟩
  | .hbm, ⟨7, _⟩ => ⟨S_, .i32⟩
  | .hbm, ⟨8, _⟩ => ⟨S1678839, .i32⟩
  | .hbm, ⟨9, _⟩ => ⟨S1678839, .i1⟩
  | .hbm, ⟨10, _⟩ => ⟨S_, .i32⟩
  | .hbm, ⟨11, _⟩ => ⟨S1678839, .i32⟩
  | .hbm, ⟨12, _⟩ => ⟨S1678839, .i32⟩
  | .hbm, ⟨13, _⟩ => ⟨S1678839, .i32⟩
  | .hbm, ⟨14, _⟩ => ⟨S_, .i32⟩
  | .hbm, ⟨15, _⟩ => ⟨S1678839, .i32⟩
  | .hbm, ⟨16, _⟩ => ⟨S1678839, .i1⟩
  | .hbm, ⟨17, _⟩ => ⟨S_, .i32⟩
  | .hbm, ⟨18, _⟩ => ⟨S1678839, .i32⟩
  | .hbm, ⟨19, _⟩ => ⟨S1678839, .i32⟩
  | .hbm, ⟨20, _⟩ => ⟨S1678839, .i32⟩
  | .hbm, ⟨21, _⟩ => ⟨S1678839x1, .i32⟩
  | .hbm, ⟨22, _⟩ => ⟨S1678839x1, .i32⟩
  | .hbm, ⟨23, _⟩ => ⟨S1678839x2, .i32⟩
  | .hbm, ⟨24, _⟩ => ⟨S4096x4096, .f32⟩
  | .hbm, ⟨25, _⟩ => ⟨S4096x4096, .f32⟩
  | .hbm, ⟨26, _⟩ => ⟨S8192x4096, .f32⟩
  | .hbm, ⟨27, _⟩ => ⟨S1x4096, .f32⟩
  | .hbm, ⟨28, _⟩ => ⟨S8192x4096, .f32⟩
  | .hbm, ⟨29, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S_S1678839 : S_.BroadcastsInDim S1678839 (![] : Fin 0 → Fin S1678839.rank)
  bcast_S1678839_S1678839x1_0 : S1678839.BroadcastsInDim S1678839x1 (![0] : Fin 1 → Fin S1678839x1.rank)
  concatenates_S1678839x1_S1678839x1_S1678839x2_d1 : Shape.Concatenates [S1678839x1, S1678839x1] S1678839x2 1
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  scatter_S4096x4096_S1678839x2_S1678839_n_01_01_1_wf : ScatterDims.WF S4096x4096 S1678839x2 S1678839 [] [0, 1] [0, 1] 1
  dot_S8192x4096_S4096x4096_S8192x4096_1_0_0_1_n_n_wf : DotDims.WF S8192x4096 S4096x4096 S8192x4096 [1] [0] [0] [1] [] []

variable [Facts₀]

def scatter_S4096x4096_S1678839x2_S1678839_n_01_01_1 : ScatterDims S4096x4096 S1678839x2 S1678839 where
  updateWindowDims := []
  insertedWindowDims := [0, 1]
  scatterDimsToOperandDims := [0, 1]
  indexVectorDim := 1
  wf := scatter_S4096x4096_S1678839x2_S1678839_n_01_01_1_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.LibTileSum.lean ====
/-
  Sums over tiled and over unit-axis index sets, over any additive commutative monoid.

  * A sum over the indices of a rank-4 shape [n0, 1, n2, n3] is the triple sum over its coordinates on axes 0, 2, 3.
  * A sum over a * b positions is the sum over a tiles of the sum over the b positions of each tile, position r of
    tile t being b * t + r.
  * A sequence that starts at zero and adds f n at step n is the running sum of f.
-/
import Idealize.ShloMosaic.Lib.ValueIdx

noncomputable section

open scoped BigOperators

namespace Cert.Lib.TileSum

open Idealize.ShloMosaic Idealize.ShloMosaic.ValueIdx

/-! ## A rank-4 index set with a unit second axis is the product of its three other coordinate ranges -/

/-- An index of shape `[n0, 1, n2, n3]` is its coordinates on axes 0, 2, 3 (axis 1 has one point). -/
def idxEquiv4u {n0 n2 n3 : Nat} : (⟨4, ![n0, 1, n2, n3]⟩ : Shape).Idx ≃ Fin n0 × Fin n2 × Fin n3 where
  toFun i := (i 0, i 2, i 3)
  invFun p := ix4 p.1 (0 : Fin 1) p.2.1 p.2.2
  left_inv i := by
    funext a
    match a with
    | ⟨0, _⟩ => rfl
    | ⟨1, _⟩ => exact Subsingleton.elim (α := Fin 1) _ _
    | ⟨2, _⟩ => rfl
    | ⟨3, _⟩ => rfl
  right_inv _ := rfl

/-- A sum over every index of shape `[n0, 1, n2, n3]` is the triple sum over the coordinates on axes 0, 2, 3. -/
theorem sum_idx4u {M : Type*} [AddCommMonoid M] {n0 n2 n3 : Nat} (f : (⟨4, ![n0, 1, n2, n3]⟩ : Shape).Idx → M) :
    ∑ i, f i = ∑ a : Fin n0, ∑ b : Fin n2, ∑ c : Fin n3, f (ix4 a (0 : Fin 1) b c) := by
  rw [← Equiv.sum_comp (idxEquiv4u (n0 := n0) (n2 := n2) (n3 := n3)).symm f, Fintype.sum_prod_type]
  refine Finset.sum_congr rfl fun a _ => ?_
  rw [Fintype.sum_prod_type]
  rfl

/-! ## Tiles -/

section Laws
variable {M : Type*} [AddCommMonoid M]

/-- Position `r` of tile `t`, among `a` tiles of `b` positions each, is below `a * b`. -/
theorem tile_lt {a b t r : ℕ} (ht : t < a) (hr : r < b) : b * t + r < a * b :=
  calc b * t + r < b * t + b := Nat.add_lt_add_left hr _
    _ = b * (t + 1) := (Nat.mul_succ b t).symm
    _ ≤ b * a := Nat.mul_le_mul_left b ht
    _ = a * b := Nat.mul_comm b a

/-- A sum over `a * b` positions is the sum over `a` tiles of the sum over the `b` positions of each tile. -/
theorem sum_fin_tiles (a b : ℕ) (g : Fin (a * b) → M) :
    ∑ n, g n = ∑ t : Fin a, ∑ r : Fin b, g ⟨b * t.val + r.val, tile_lt t.isLt r.isLt⟩ := by
  rw [← Equiv.sum_comp (finProdFinEquiv (m := a) (n := b)) g, Fintype.sum_prod_type]
  refine Finset.sum_congr rfl fun t _ => Finset.sum_congr rfl fun r _ => congrArg g (Fin.ext ?_)
  show r.val + b * t.val = b * t.val + r.val
  exact Nat.add_comm _ _

/-- THE FOLD LAW: a sequence that starts at zero and adds `f n` at step `n` is the running sum of `f`. -/
theorem fold_eq_sum (f g : ℕ → M) (h0 : g 0 = 0) (hs : ∀ n, g (n + 1) = g n + f n) (n : ℕ) :
    g n = ∑ i ∈ Finset.range n, f i := by
  induction n with
  | zero => rw [h0, Finset.range_zero, Finset.sum_empty]
  | succ n ih => rw [hs, ih, Finset.sum_range_succ]

end Laws

end Cert.Lib.TileSum

end
-- ==== Proof.Spec.lean ====
/-
  The layer both programs compute, as ONE function of three arrays: for an activation array x of 8192 rows and
  4096 columns, a weight array wt of 4096 rows and 4096 columns (row k holds the weights that multiply column k of
  x) and a bias vector b of length 4096,

      dense x wt b (i, j) = (the sum over k < 4096 of x (i, k) * wt (k, j)) + b j

  on the extended reals. Beside it, the one law of sums the blocked evaluation needs: the 4096 terms of an entry's
  sum, taken 1024 at a time into an accumulator that starts at zero, add up to the whole sum. Addition of extended
  reals is commutative and associative, so no finiteness is used.
-/
import Idealize.ShloMosaic.PureOps.Ideal
import Idealize.ShloMosaic.Lib.ValueIdx
import proofs.«128499_j12713103196329_1_alg».proof.Proof.LibTileSum

noncomputable section

open scoped BigOperators

namespace Cert.SparseLinear

open Idealize.ShloMosaic Idealize.ShloMosaic.ValueIdx

/-- Entry (i, j) of x times wt plus the bias broadcast down the rows. -/
def dense (x : (⟨2, ![8192, 4096]⟩ : Shape).Idx → EReal) (wt : (⟨2, ![4096, 4096]⟩ : Shape).Idx → EReal)
    (b : (⟨1, ![4096]⟩ : Shape).Idx → EReal) : (⟨2, ![8192, 4096]⟩ : Shape).Idx → EReal :=
  fun i => (∑ k : Fin 4096, x (ix2 (i 0) k) * wt (ix2 k (i 1))) + b (ix1 (i 1))

/-- Position r of the s-th run of 1024 inner positions. -/
def inner (s : Fin 4) (r : Fin 1024) : Fin 4096 := ⟨1024 * s.val + r.val, by have := s.isLt; have := r.isLt; omega⟩

/-- The partial sum of an entry over the s-th run of 1024 inner positions. -/
def part (f : Fin 4096 → EReal) (s : Fin 4) : EReal := ∑ r : Fin 1024, f (inner s r)

/-- Four runs of 1024 terms, added one after the other to zero, are the whole sum of the 4096 terms. -/
theorem runs_sum (f : Fin 4096 → EReal) :
    (((0 + part f 0) + part f 1) + part f 2) + part f 3 = ∑ k : Fin 4096, f k := by
  have h := Cert.Lib.TileSum.sum_fin_tiles 4 1024 (fun n : Fin (4 * 1024) => f n)
  rw [Fin.sum_univ_four] at h
  rw [zero_add]
  exact h.symm

end Cert.SparseLinear

end
-- ==== Proof.LibDotIx2.lean ====
/-
  A plain matrix product read at a row and a column, for operands of any float formats. For dimension numbers that
  contract the left operand's second axis with the right operand's first and batch nothing — stated by the four
  coordinate facts of the operand indices — the contraction at (r, c) is the finite sum over k of
  left (r, k) * right (k, c). Two readings rest on it: a matrix-unit product into the zero accumulator, and the
  host's dot_general; at the extended reals both are that sum, whatever formats the operands were rounded to on the way.
-/
import Idealize.ShloMosaic.PureOps.Ideal.Laws
import Idealize.ShloMosaic.Lib.ValueIdx

noncomputable section

open scoped BigOperators

namespace Idealize.ShloMosaic.ValueIdx

open Idealize.ShloMosaic

/-- The facts that say a dot's dimension numbers are those of a plain M x K by K x N product. -/
structure PlainDot {M K N : ℕ} (d : DotDims (⟨2, ![M, K]⟩ : Shape) (⟨2, ![K, N]⟩ : Shape) (⟨2, ![M, N]⟩ : Shape)) : Prop where
  rank : d.contr.rank = 1
  size : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (q ⟨0, by omega⟩).val
  r1 : ∀ (j : (⟨2, ![M, N]⟩ : Shape).Idx) (q : d.contr.Idx), (d.rhsIdx j q 1).val = (j 1).val

/-- The contraction of a plain product at (r, c), re-indexed by the inner position k. -/
theorem contraction_ix2 {M K N : ℕ} {d : DotDims (⟨2, ![M, K]⟩ : Shape) (⟨2, ![K, N]⟩ : Shape) (⟨2, ![M, N]⟩ : Shape)}
    (hd : PlainDot d) (lhs : (⟨2, ![M, K]⟩ : Shape).Idx → EReal) (rhs : (⟨2, ![K, N]⟩ : Shape).Idx → EReal) (r : Fin M) (c : Fin N) :
    (∑ q : d.contr.Idx, lhs (d.lhsIdx (ix2 r c) q) * rhs (d.rhsIdx (ix2 r c) q)) = ∑ k : Fin K, lhs (ix2 r k) * rhs (ix2 k c) := by
  rw [← Equiv.sum_comp (contrEquiv1 d K hd.rank hd.size).symm]
  refine Finset.sum_congr rfl fun k _ => ?_
  have hk := contrEquiv1_symm_val d K hd.rank hd.size k
  have el : d.lhsIdx (ix2 r c) ((contrEquiv1 d K hd.rank hd.size).symm k) = ix2 r k := funext fun a => Fin.ext (by
    match a with
    | ⟨0, _⟩ => exact hd.l0 _ _
    | ⟨1, _⟩ => exact (hd.l1 _ _).trans hk)
  have er : d.rhsIdx (ix2 r c) ((contrEquiv1 d K hd.rank hd.size).symm k) = ix2 k c := funext fun a => Fin.ext (by
    match a with
    | ⟨0, _⟩ => exact (hd.r0 _ _).trans hk
    | ⟨1, _⟩ => exact hd.r1 _ _)
  rw [el, er]

/-- A matrix-unit product of an M x K by a K x N array into zeros, at (r, c): the sum over the K inner positions. -/
theorem matmul_zero_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision)
    (lhs : FVec Ideal (⟨2, ![M, K]⟩ : Shape) φ₁) (rhs : FVec Ideal (⟨2, ![K, N]⟩ : Shape) φ₂) (r : Fin M) (c : Fin N) :
    FloatOps.matmul d prec lhs rhs (constant (⟨2, ![M, N]⟩ : Shape) .f32 0x00000000#32) (ix2 r c)
      = ∑ k : Fin K, (lhs (ix2 r k) : EReal) * (rhs (ix2 k c) : EReal) := by
  rw [Ideal.matmul_constant_zero_apply]
  exact contraction_ix2 hd lhs rhs r c

/-- The host's dot_general of an M x K by a K x N array, at (r, c): the same sum. -/
theorem dotGeneral_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision) (sched : HostSchedule)
    (lhs : FVec Ideal (⟨2, ![M, K]⟩ : Shape) φ₁) (rhs : FVec Ideal (⟨2, ![K, N]⟩ : Shape) φ₂) (r : Fin M) (c : Fin N) :
    FloatOps.dotGeneral d prec sched lhs rhs (ix2 r c)
      = ∑ k : Fin K, (lhs (ix2 r k) : EReal) * (rhs (ix2 k c) : EReal) := by
  rw [Ideal.dotGeneral_apply]
  exact contraction_ix2 hd lhs rhs r c

end Idealize.ShloMosaic.ValueIdx

end
-- ==== Proof.LibBroadcastInDim.lean ====
/-
  The host's broadcast_in_dim in the five small forms a row-wise normalisation uses, each read at an index given by
  coordinates: a scalar to any shape; a vector of length a to an a x 1 column; an a x 1 column to a x b; a vector of
  length b to a 1 x b row; a 1 x b row to a x b. In each the result's entry is the operand's entry at the coordinates
  the broadcast keeps.
-/
import Idealize.ShloMosaic.Lib.Pipeline.Value
import Idealize.ShloMosaic.Lib.ValueIdx

namespace Idealize.ShloMosaic.ValueIdx

open Idealize.ShloMosaic

variable {α : Type}

/-- A scalar broadcast to any shape reads the scalar everywhere. -/
theorem broadcastInDim_scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun a => a.elim0

/-- A vector of length a placed as an a x 1 column reads, at (r, u), the vector at r. -/
theorem broadcastInDim_vec_col_apply {a : ℕ} (h : (⟨1, ![a]⟩ : Shape).BroadcastsInDim (⟨2, ![a, 1]⟩ : Shape) ![0])
    (x : (⟨1, ![a]⟩ : Shape).Idx → α) (r : Fin a) (u : Fin 1) :
    broadcastInDim (⟨2, ![a, 1]⟩ : Shape) ![0] h x (ix2 r u) = x (ix1 r) := by
  refine broadcastInDim_apply ![0] h x (ix2 r u) (ix1 r) fun ax => ?_
  match ax with
  | ⟨0, _⟩ =>
    show r.val = if a = 1 then 0 else r.val
    split
    · have := r.isLt; omega
    · rfl

/-- An a x 1 column broadcast to a x b reads, at (r, c), the column at (r, 0). -/
theorem broadcastInDim_col_mat_apply {a b : ℕ} (h : (⟨2, ![a, 1]⟩ : Shape).BroadcastsInDim (⟨2, ![a, b]⟩ : Shape) ![0, 1])
    (x : (⟨2, ![a, 1]⟩ : Shape).Idx → α) (r : Fin a) (c : Fin b) :
    broadcastInDim (⟨2, ![a, b]⟩ : Shape) ![0, 1] h x (ix2 r c) = x (ix2 r (0 : Fin 1)) := by
  refine broadcastInDim_apply ![0, 1] h x (ix2 r c) (ix2 r (0 : Fin 1)) fun ax => ?_
  match ax with
  | ⟨0, _⟩ =>
    show r.val = if a = 1 then 0 else r.val
    split
    · have := r.isLt; omega
    · rfl
  | ⟨1, _⟩ => rfl

/-- A vector of length b placed as a 1 x b row reads, at (u, c), the vector at c. -/
theorem broadcastInDim_vec_row_apply {b : ℕ} (h : (⟨1, ![b]⟩ : Shape).BroadcastsInDim (⟨2, ![1, b]⟩ : Shape) ![1])
    (x : (⟨1, ![b]⟩ : Shape).Idx → α) (u : Fin 1) (c : Fin b) :
    broadcastInDim (⟨2, ![1, b]⟩ : Shape) ![1] h x (ix2 u c) = x (ix1 c) := by
  refine broadcastInDim_apply ![1] h x (ix2 u c) (ix1 c) fun ax => ?_
  match ax with
  | ⟨0, _⟩ =>
    show c.val = if b = 1 then 0 else c.val
    split
    · have := c.isLt; omega
    · rfl

/-- A 1 x b row broadcast to a x b reads, at (r, c), the row at (0, c). -/
theorem broadcastInDim_row_mat_apply {a b : ℕ} (h : (⟨2, ![1, b]⟩ : Shape).BroadcastsInDim (⟨2, ![a, b]⟩ : Shape) ![0, 1])
    (x : (⟨2, ![1, b]⟩ : Shape).Idx → α) (r : Fin a) (c : Fin b) :
    broadcastInDim (⟨2, ![a, b]⟩ : Shape) ![0, 1] h x (ix2 r c) = x (ix2 (0 : Fin 1) c) := by
  refine broadcastInDim_apply ![0, 1] h x (ix2 r c) (ix2 (0 : Fin 1) c) fun ax => ?_
  match ax with
  | ⟨0, _⟩ => rfl
  | ⟨1, _⟩ =>
    show c.val = if b = 1 then 0 else c.val
    split
    · have := c.isLt; omega
    · rfl

end Idealize.ShloMosaic.ValueIdx
-- ==== Proof.RefValue.lean ====
/-
  The reference, entry by entry. Its result is the host's matrix product of x with the transposed weight array, plus
  the bias vector laid out as one row and repeated down the 8192 rows. Read at row r and column c this is the sum over
  the 4096 inner positions k of x (r, k) * wt (k, c), plus b c: the layer `dense` of the specification.
-/
import proofs.«128499_j12713103196329_1_alg».proof.Proof.Gen.ReferenceIdeal
import proofs.«128499_j12713103196329_1_alg».proof.Proof.Spec
import proofs.«128499_j12713103196329_1_alg».proof.Proof.LibDotIx2
import proofs.«128499_j12713103196329_1_alg».proof.Proof.LibBroadcastInDim

noncomputable section

open scoped BigOperators

namespace Cert.ReferenceIdeal.Layer

open Idealize.ShloMosaic Idealize.ShloMosaic.ValueIdx Cert.ReferenceIdeal

/-- The reference's product contracts the columns of its left operand with the rows of its right operand and batches
    nothing: the four coordinate facts of a plain product. -/
theorem plain : PlainDot (M := 8192) (K := 4096) (N := 4096) dot_S8192x4096_S4096x4096_S8192x4096_1_0_0_1_n_n where
  rank := rfl
  size := rfl
  l0 := fun j q => by
    unfold DotDims.lhsIdx
    rw [dif_neg (show ¬(0 : Fin S8192x4096.rank) ∈ dot_S8192x4096_S4096x4096_S8192x4096_1_0_0_1_n_n.lhsBatch by decide),
      dif_pos (show (0 : Fin S8192x4096.rank) ∈ dot_S8192x4096_S4096x4096_S8192x4096_1_0_0_1_n_n.lhsNonContracting by decide)]
    rfl
  l1 := fun j q => dot_S8192x4096_S4096x4096_S8192x4096_1_0_0_1_n_n.lhsIdx_val_of_single rfl j q
  r0 := fun j q => dot_S8192x4096_S4096x4096_S8192x4096_1_0_0_1_n_n.rhsIdx_val_of_single rfl j q
  r1 := fun j q => by
    unfold DotDims.rhsIdx
    rw [dif_neg (show ¬(1 : Fin S4096x4096.rank) ∈ dot_S8192x4096_S4096x4096_S8192x4096_1_0_0_1_n_n.rhsBatch by decide),
      dif_pos (show (1 : Fin S4096x4096.rank) ∈ dot_S8192x4096_S4096x4096_S8192x4096_1_0_0_1_n_n.rhsNonContracting by decide)]
    rfl

/-- The host's product plus the bias, the bias first laid out as a 1 x 4096 row and then repeated down the rows, is the
    layer `dense`, whatever the transposed weight array holds. -/
theorem result_dense (hrow : S4096.BroadcastsInDim S1x4096 ![1]) (hmat : S1x4096.BroadcastsInDim S8192x4096 ![0, 1])
    (x : FVec Ideal S8192x4096 .f32) (wt : FVec Ideal S4096x4096 .f32) (b : FVec Ideal S4096 .f32) :
    addf (Host.dotGeneral dot_S8192x4096_S4096x4096_S8192x4096_1_0_0_1_n_n none x wt)
        (broadcastInDim S8192x4096 ![0, 1] hmat (broadcastInDim S1x4096 ![1] hrow b))
      = Cert.SparseLinear.dense x wt b := by
  funext i
  obtain ⟨r, c, rfl⟩ : ∃ (r : Fin 8192) (c : Fin 4096), i = ix2 r c := ⟨i 0, i 1, eq_ix2 i⟩
  rw [addf_apply]
  simp only [Host.dotGeneral]
  rw [dotGeneral_ix2_any plain, broadcastInDim_row_mat_apply, broadcastInDim_vec_row_apply]
  rfl

end Cert.ReferenceIdeal.Layer

end
-- ==== Proof.Pieces.lean ====
/-
  What one grid step of the blocked product leaves behind, as values of what it found. The body keeps a running
  1024 x 1024 accumulator between steps. Writing a and w for the step's block of activations and block of transposed
  weights, and `step acc a w` for "acc plus the product of a and w" (the second stored value of the body):

  * a first step of a run (inner block 0) resets the accumulator to zero and leaves `step zero a w`;
  * a middle step leaves `step acc a w` of the accumulator acc it found;
  * a last step (inner block 3) leaves the same in the accumulator, and stores into the output block that value plus
    the bias row (the third stored value of the body).

  Each is the payload of the body's one covering store, its loads reading the whole buffers.
-/
import proofs.«128499_j12713103196329_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Steps

open Cert.KernelIdeal Cert.KernelIdeal.Gen

variable {F : FTy → Type} [FloatOps F]

theorem hz : (![0, 0] : Fin 2 → Nat) = fun _ => 0 := funext fun a => by fin_cases a <;> rfl

/-- A middle step: the accumulator ends at the found accumulator plus the step's product. -/
theorem acc_B (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : ¬cond0_1 i)
    (x0 x1 : Vec F S1024x1024 .bf16) (x2 : Vec F S1x1024 .f32) (xs : Vec F S1024x1024 .f32) :
    sout0_B_0 c i a3 h3 a4 h4 a5 h5 a6 h6 a7 h7 hc0 hc1 x0 x1 x2 xs = k0_pay2 xs x0 x1 := by
  unfold sout0_B_0
  rw [View.read_writes_eq_canon _ _ _ (scover0_B_0 c i a3 h3 a4 h4 a5 h5 a6 h6 a7 h7 hc0 hc1 x0 x1 x2 xs)]
  unfold kernelRun0_B
  dsimp only
  rw [View.canon_unit_zero hz]
  simp only [View.readAt_eq_ld, h3.read_unread, h4.read_unread, h7.read_unread, View.ld_unit_zero (S := S1024x1024) hz]

/-- A first step: the accumulator is reset, read back, and ends at zero plus the step's product. -/
theorem acc_A (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : cond0_0 i) (hc1 : ¬cond0_1 i)
    (x0 x1 : Vec F S1024x1024 .bf16) (x2 : Vec F S1x1024 .f32) :
    sout0_A_0 c i a3 h3 a4 h4 a5 h5 a6 h6 a7 h7 hc0 hc1 x0 x1 x2 = k0_pay2 (k0_pay1 (F := F)) x0 x1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

/-- A last step, the accumulator: the found accumulator plus the step's product. -/
theorem acc_C (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i)
    (x0 x1 : Vec F S1024x1024 .bf16) (x2 : Vec F S1x1024 .f32) (xs : Vec F S1024x1024 .f32) :
    sout0_C_0 c i a3 h3 a4 h4 a5 h5 a6 h6 a7 h7 hc0 hc1 x0 x1 x2 xs = k0_pay2 xs x0 x1 := by
  unfold sout0_C_0
  rw [View.read_writes_eq_canon _ _ _ (scover0_C_0 c i a3 h3 a4 h4 a5 h5 a6 h6 a7 h7 hc0 hc1 x0 x1 x2 xs)]
  unfold kernelRun0_C
  dsimp only
  sl_unfold_words
  rw [View.canon_unit_zero hz]
  simp only [View.readAt_eq_ld, h3.read_unread, h4.read_unread, h7.read_unread, View.ld_unit_zero (S := S1024x1024) hz]

/-- A last step, the output block: the new accumulator, read back, plus the bias row. -/
theorem out_C (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i)
    (x0 x1 : Vec F S1024x1024 .bf16) (x2 : Vec F S1x1024 .f32) (xs : Vec F S1024x1024 .f32) :
    out0_C_3 c i a3 h3 a4 h4 a5 h5 a6 h6 a7 h7 hc0 hc1 x0 x1 x2 xs = k0_pay3 (k0_pay2 xs x0 x1) x2 := by
  unfold out0_C_3
  rw [View.read_writes_eq_canon _ _ _ (cover0_C_3 c i a3 h3 a4 h4 a5 h5 a6 h6 a7 h7 hc0 hc1 x0 x1 x2 xs)]
  unfold kernelRun0_C
  dsimp only
  sl_unfold_words
  rw [View.canon_unit_zero hz, View.readCov_unit_zero (S := S1024x1024) _ hz]
  simp only [View.readAt_eq_ld, h3.read_unread, h4.read_unread, h5.read_unread, h7.read_unread,
    View.ld_unit_zero (S := S1024x1024) hz, View.ld_unit_zero (S := S1x1024) hz]

end Cert.KernelIdeal.Steps

end
-- ==== Proof.Entries.lean ====
/-
  The three values the kernel body stores, each read at one entry (p, q) of a 1024 x 1024 block, on the extended reals.

  * the accumulator's reset value is zero;
  * one accumulation step leaves acc (p, q) plus the sum over the 1024 inner positions k of a (p, k) * w (k, q), where a
    is the block of activations and w the block of transposed weights of the step (the product is taken into a zero
    accumulator, and a change of float format is the identity on the extended reals);
  * the final store leaves acc (p, q) plus the bias row's entry at column q.
-/
import proofs.«128499_j12713103196329_1_alg».proof.Proof.Gen.KernelIdeal.Skeleton
import proofs.«128499_j12713103196329_1_alg».proof.Proof.LibDotIx2
import Idealize.ShloMosaic.Lib.Pipeline.Value
import Idealize.ShloMosaic.PureOps.Ideal.Laws

noncomputable section

open scoped BigOperators

namespace Cert.KernelIdeal.Entries

open Idealize.ShloMosaic Idealize.ShloMosaic.ValueIdx Cert.KernelIdeal Cert.KernelIdeal.Gen

/-- The body's product contracts the columns of its left block with the rows of its right block and batches nothing. -/
theorem plain : PlainDot (M := 1024) (K := 1024) (N := 1024) dot_S1024x1024_S1024x1024_S1024x1024_1_0_0_1_n_n where
  rank := rfl
  size := rfl
  l0 := fun j q => by
    unfold DotDims.lhsIdx
    rw [dif_neg (show ¬(0 : Fin S1024x1024.rank) ∈ dot_S1024x1024_S1024x1024_S1024x1024_1_0_0_1_n_n.lhsBatch by decide),
      dif_pos (show (0 : Fin S1024x1024.rank) ∈ dot_S1024x1024_S1024x1024_S1024x1024_1_0_0_1_n_n.lhsNonContracting by decide)]
    rfl
  l1 := fun j q => dot_S1024x1024_S1024x1024_S1024x1024_1_0_0_1_n_n.lhsIdx_val_of_single rfl j q
  r0 := fun j q => dot_S1024x1024_S1024x1024_S1024x1024_1_0_0_1_n_n.rhsIdx_val_of_single rfl j q
  r1 := fun j q => by
    unfold DotDims.rhsIdx
    rw [dif_neg (show ¬(1 : Fin S1024x1024.rank) ∈ dot_S1024x1024_S1024x1024_S1024x1024_1_0_0_1_n_n.rhsBatch by decide),
      dif_pos (show (1 : Fin S1024x1024.rank) ∈ dot_S1024x1024_S1024x1024_S1024x1024_1_0_0_1_n_n.rhsNonContracting by decide)]
    rfl

/-- The reset value is zero at every entry. -/
theorem reset_apply (y : S1024x1024.Idx) : k0_pay1 (F := Ideal) y = 0 := by
  unfold k0_pay1
  rw [shapeCast_self]
  exact Ideal.ofBits_zero_f32

/-- One accumulation step at entry (p, q). -/
theorem step_apply (acc : Vec Ideal S1024x1024 .f32) (a w : Vec Ideal S1024x1024 .bf16) (p q : Fin 1024) :
    k0_pay2 (F := Ideal) acc a w (ix2 p q) = acc (ix2 p q) + ∑ k : Fin 1024, a (ix2 p k) * w (ix2 k q) := by
  unfold k0_pay2
  simp only [shapeCast_self]
  refine (addf_apply _ _ _).trans ?_
  exact congrArg (fun z => acc (ix2 p q) + z) (matmul_zero_ix2_any plain none a w p q)

/-- The final store at entry (p, q): the accumulator plus the bias row's entry at column q. -/
theorem final_apply (acc : Vec Ideal S1024x1024 .f32) (b : Vec Ideal S1x1024 .f32) (p q : Fin 1024) :
    k0_pay3 (F := Ideal) acc b (ix2 p q) = acc (ix2 p q) + b (ix2 (0 : Fin 1) q) := by
  unfold k0_pay3
  simp only [shapeCast_self]
  refine (addf_apply _ _ _).trans ?_
  refine congrArg (fun z => acc (ix2 p q) + z) ?_
  refine broadcastTo_apply b broadcasts_S1x1024_S1024x1024 (ix2 p q) (ix2 (0 : Fin 1) q) fun ax => ?_
  match ax with
  | ⟨0, _⟩ => rfl
  | ⟨1, _⟩ =>
    show q.val = if (1024 : Nat) = 1 then 0 else q.val
    rw [if_neg (by decide)]

end Cert.KernelIdeal.Entries

end
-- ==== Proof.Blocks.lean ====
/-
  Where the kernel's blocks sit in its arrays, and what those arrays hold when the region is entered.

  The grid has 8 x 4 x 4 points; point t has row-block t / 16, column-block (t / 4) % 4 and inner block t % 4. At
  point t the activation block is rows 1024 (t / 16) + p and columns 1024 (t % 4) + k of the activation array, the
  weight block rows 1024 (t % 4) + k and columns 1024 ((t / 4) % 4) + q of the transposed weight array, the bias
  block columns 1024 ((t / 4) % 4) + q of the bias row, and the output block rows 1024 (t / 16) + p and columns
  1024 ((t / 4) % 4) + q of the result.

  On the extended reals the arrays the kernel is launched on are: the activations x themselves (a narrowing of the
  float format is the identity), the transposed weight array the host operations built (the same), and the bias
  vector laid out as one row.
-/
import proofs.«128499_j12713103196329_1_alg».proof.Proof.Gen.KernelIdeal.Frame.Runs
import Idealize.ShloMosaic.Lib.Pipeline.Value
import Idealize.ShloMosaic.Lib.ValueIdx
import Idealize.ShloMosaic.Lib.ValueLayout
import Idealize.ShloMosaic.Lib.StableHlo.Run

noncomputable section

open Idealize.ShloMosaic Idealize.ShloMosaic.TcCoe Idealize.SL.Sem

namespace Cert.KernelIdeal.Blocks

open Cert.KernelIdeal Cert.KernelIdeal.Gen Idealize.ShloMosaic.ValueIdx

/-- The block indices of the four windows at point t, decided over the grid. -/
theorem idx_facts : ∀ t : Fin cfg0.N,
    win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 2) = 0 ∧ win0_2.index t (1 : Fin 2) = t.val / 4 % 4
    ∧ win0_3.index t (0 : Fin 2) = t.val / 16 ∧ win0_3.index t (1 : Fin 2) = t.val / 4 % 4 :=
  (by decide +kernel : ∀ t : Fin grid0.N, _)

section Reads

variable {F : FTy → Type} [FloatOps F]
variable (m : (ℓ : Loc nD τ sig) → Buf (Elt F) ℓ)

/-- Entry (p, k) of the activation block at point t. -/
theorem act_blk (c : Dev nD) (t : Fin cfg0.N) (p k : Fin 1024) (R : Fin 8192) (C : Fin 4096)
    (hR : R.val = 1024 * (t.val / 16) + p.val) (hC : C.val = 1024 * (t.val % 4) + k.val) :
    (iblk m c 0 t : Vec F S1024x1024 .bf16) (ix2 p k) = V m c main_v16 (ix2 R C) := by
  obtain ⟨e0, e1, -⟩ := idx_facts t
  show V m c main_v16 (((cfg0.win 0).blk t).view.emb (ix2 p k)) = V m c main_v16 (ix2 R C)
  refine congrArg (V m c main_v16) (funext fun a => Fin.ext ?_)
  match a with
  | ⟨0, _⟩ => show win0_0.index t (0 : Fin 2) * 1024 + 1 * p.val = R.val; rw [e0, hR]; omega
  | ⟨1, _⟩ => show win0_0.index t (1 : Fin 2) * 1024 + 1 * k.val = C.val; rw [e1, hC]; omega

/-- Entry (k, q) of the weight block at point t. -/
theorem wt_blk (c : Dev nD) (t : Fin cfg0.N) (k q : Fin 1024) (R C : Fin 4096)
    (hR : R.val = 1024 * (t.val % 4) + k.val) (hC : C.val = 1024 * (t.val / 4 % 4) + q.val) :
    (iblk m c 1 t : Vec F S1024x1024 .bf16) (ix2 k q) = V m c main_v17 (ix2 R C) := by
  obtain ⟨-, -, e0, e1, -⟩ := idx_facts t
  show V m c main_v17 (((cfg0.win 1).blk t).view.emb (ix2 k q)) = V m c main_v17 (ix2 R C)
  refine congrArg (V m c main_v17) (funext fun a => Fin.ext ?_)
  match a with
  | ⟨0, _⟩ => show win0_1.index t (0 : Fin 2) * 1024 + 1 * k.val = R.val; rw [e0, hR]; omega
  | ⟨1, _⟩ => show win0_1.index t (1 : Fin 2) * 1024 + 1 * q.val = C.val; rw [e1, hC]; omega

/-- Entry (0, q) of the bias block at point t. -/
theorem bias_blk (c : Dev nD) (t : Fin cfg0.N) (q : Fin 1024) (C : Fin 4096)
    (hC : C.val = 1024 * (t.val / 4 % 4) + q.val) :
    (iblk m c 2 t : Vec F S1x1024 .f32) (ix2 (0 : Fin 1) q) = V m c main_v18 (ix2 (0 : Fin 1) C) := by
  obtain ⟨-, -, -, -, e0, e1, -⟩ := idx_facts t
  show V m c main_v18 (((cfg0.win 2).blk t).view.emb (ix2 (0 : Fin 1) q)) = V m c main_v18 (ix2 (0 : Fin 1) C)
  refine congrArg (V m c main_v18) (funext fun a => Fin.ext ?_)
  match a with
  | ⟨0, _⟩ => show win0_2.index t (0 : Fin 2) * 1 + 1 * 0 = 0; rw [e0]
  | ⟨1, _⟩ => show win0_2.index t (1 : Fin 2) * 1024 + 1 * q.val = C.val; rw [e1, hC]; omega

end Reads

section Entry

variable (m : (ℓ : Loc nD τ sig) → Buf (Elt Ideal) ℓ)

/-- The activation array the kernel is launched on holds x. -/
theorem act_entry (c : Dev nD) (R : Fin 8192) (C : Fin 4096) :
    (V m c main_v16 : S8192x4096.Idx → EReal) (ix2 R C) = m ((c : Thread nD τ).loc main_arg0) (ix2 R C) := by
  have e : @Eq (FVec Ideal S8192x4096 .bf16) (V m c main_v16) (truncf (F := Ideal) (s := S8192x4096) (φ := .f32) .bf16 (m ((c : Thread nD τ).loc main_arg0)) bitsLt_bf16_f32) := by
    dsimp only [Gen.V, Gen.hostOps0]; after_results
  rw [e]; rfl

/-- The transposed weight array as the host operations before the region leave it (the scatter of the weight values
    into zeros, transposed). Both programs build it by the same operations, and nothing below looks inside it. -/
def weightsT (c : Dev nD) : (⟨2, ![4096, 4096]⟩ : Shape).Idx → EReal := V m c main_v15

theorem weightsT_eq (c : Dev nD) : weightsT m c = V m c main_v15 := rfl

attribute [irreducible] weightsT

set_option maxHeartbeats 2000000 in
/-- The weight array the kernel is launched on holds that array. -/
theorem wt_entry (c : Dev nD) (R C : Fin 4096) :
    (V m c main_v17 : S4096x4096.Idx → EReal) (ix2 R C) = weightsT m c (ix2 R C) := by
  have e : @Eq (FVec Ideal S4096x4096 .bf16) (V m c main_v17) (truncf (F := Ideal) (s := S4096x4096) (φ := .f32) .bf16 (V m c main_v15) bitsLt_bf16_f32) := by
    dsimp only [Gen.V, Gen.hostOps0]; after_results_simp
  rw [e, weightsT_eq]
  exact truncf_apply (V m c main_v15) bitsLt_bf16_f32 (ix2 R C)

/-- The bias row the kernel is launched on holds the bias vector. -/
theorem bias_entry (c : Dev nD) (C : Fin 4096) :
    (V m c main_v18 : S1x4096.Idx → EReal) (ix2 (0 : Fin 1) C) = m ((c : Thread nD τ).loc main_arg2) (ix1 C) := by
  have e : @Eq (FVec Ideal S1x4096 .f32) (V m c main_v18) (shapeCast S1x4096 (m ((c : Thread nD τ).loc main_arg2) : FVec Ideal S4096 .f32) shapeCasts_S4096_S1x4096) := by
    dsimp only [Gen.V, Gen.hostOps0]; after_results; rfl
  rw [e]
  exact shapeCast_a_1a_apply _ _ _ _

end Entry

end Cert.KernelIdeal.Blocks

end
-- ==== Proof.Accum.lean ====
/-
  The running accumulator and the output block, entry by entry, on the extended reals.

  Fix a row block bi, a column block bj, and an entry (p, q) of the 1024 x 1024 block; write R = 1024 bi + p,
  C = 1024 bj + q, and f k = x (R, k) * wt (k, C) for the 4096 terms of the result's entry (R, C). The four points
  16 bi + 4 bj + s, s = 0, 1, 2, 3, run one after the other. The step at inner block s adds to the accumulator's entry
  (p, q) the partial sum of f over the s-th run of 1024 inner positions. So after the first three points the
  accumulator's entry is 0 + part f 0, then that plus part f 1, then that plus part f 2; and the fourth point stores
  into the output block that plus part f 3 plus the bias at column C — the whole sum of f plus the bias, which is
  the layer `dense` at (R, C).
-/
import proofs.«128499_j12713103196329_1_alg».proof.Proof.Gen.KernelIdeal.Value
import proofs.«128499_j12713103196329_1_alg».proof.Proof.Spec
import proofs.«128499_j12713103196329_1_alg».proof.Proof.Pieces
import proofs.«128499_j12713103196329_1_alg».proof.Proof.Entries
import proofs.«128499_j12713103196329_1_alg».proof.Proof.Blocks

noncomputable section

open scoped BigOperators

open Idealize.ShloMosaic Idealize.ShloMosaic.TcCoe Idealize.SL.Sem

namespace Cert.KernelIdeal.Accum

open Cert.KernelIdeal Cert.KernelIdeal.Gen Idealize.ShloMosaic.ValueIdx Cert.SparseLinear

variable (m : (ℓ : Loc nD τ sig) → Buf (Elt Ideal) ℓ)

/-- Row p of row block bi. -/
def row (bi : Fin 8) (p : Fin 1024) : Fin 8192 := ⟨1024 * bi.val + p.val, by have := bi.isLt; have := p.isLt; omega⟩
/-- Column q of column block bj. -/
def col (bj : Fin 4) (q : Fin 1024) : Fin 4096 := ⟨1024 * bj.val + q.val, by have := bj.isLt; have := q.isLt; omega⟩

/-- The activations, the transposed weights as the host operations built them, and the bias, on core c. -/
abbrev acts (c : Dev nD) : (⟨2, ![8192, 4096]⟩ : Shape).Idx → EReal := m ((c : Thread nD τ).loc main_arg0)
abbrev wts (c : Dev nD) : (⟨2, ![4096, 4096]⟩ : Shape).Idx → EReal := Blocks.weightsT m c
abbrev bias (c : Dev nD) : (⟨1, ![4096]⟩ : Shape).Idx → EReal := m ((c : Thread nD τ).loc main_arg2)

/-- The 4096 terms of the result's entry (R, C). -/
def term (c : Dev nD) (R : Fin 8192) (C : Fin 4096) (k : Fin 4096) : EReal :=
  acts m c (ix2 R k) * wts m c (ix2 k C)

/-! ## The blocks of point 16 bi + 4 bj + s, read in the arrays -/

theorem act_at (c : Dev nD) (t : Fin cfg0.N) (bi : Fin 8) (bj s : Fin 4) (ht : t.val = 16 * bi.val + 4 * bj.val + s.val)
    (p k : Fin 1024) :
    (iblk m c 0 t : Vec Ideal S1024x1024 .bf16) (ix2 p k) = acts m c (ix2 (row bi p) (inner s k)) := by
  have hb := bi.isLt; have hj := bj.isLt; have hs := s.isLt
  exact (Blocks.act_blk m c t p k (row bi p) (inner s k)
    (by show 1024 * bi.val + p.val = _; omega) (by show 1024 * s.val + k.val = _; omega)).trans (Blocks.act_entry m c _ _)

theorem wt_at (c : Dev nD) (t : Fin cfg0.N) (bi : Fin 8) (bj s : Fin 4) (ht : t.val = 16 * bi.val + 4 * bj.val + s.val)
    (k q : Fin 1024) :
    (iblk m c 1 t : Vec Ideal S1024x1024 .bf16) (ix2 k q) = wts m c (ix2 (inner s k) (col bj q)) := by
  have hb := bi.isLt; have hj := bj.isLt; have hs := s.isLt
  exact (Blocks.wt_blk m c t k q (inner s k) (col bj q)
    (by show 1024 * s.val + k.val = _; omega) (by show 1024 * bj.val + q.val = _; omega)).trans (Blocks.wt_entry m c _ _)

theorem bias_at (c : Dev nD) (t : Fin cfg0.N) (bi : Fin 8) (bj s : Fin 4) (ht : t.val = 16 * bi.val + 4 * bj.val + s.val)
    (q : Fin 1024) :
    (iblk m c 2 t : Vec Ideal S1x1024 .f32) (ix2 (0 : Fin 1) q) = bias m c (ix1 (col bj q)) := by
  have hb := bi.isLt; have hj := bj.isLt; have hs := s.isLt
  exact (Blocks.bias_blk m c t q (col bj q) (by show 1024 * bj.val + q.val = _; omega)).trans (Blocks.bias_entry m c _)

/-! ## One step, for any blocks that hold those entries -/

/-- If a holds row R of the activations at the s-th run of inner positions and w holds column C of the transposed
    weights there, a step adds to the accumulator's entry the s-th partial sum of the entry's terms. -/
theorem step_entry (c : Dev nD) (acc : Vec Ideal S1024x1024 .f32) (a w : Vec Ideal S1024x1024 .bf16)
    (R : Fin 8192) (C : Fin 4096) (s : Fin 4) (p q : Fin 1024)
    (ha : ∀ k : Fin 1024, a (ix2 p k) = acts m c (ix2 R (inner s k)))
    (hw : ∀ k : Fin 1024, w (ix2 k q) = wts m c (ix2 (inner s k) C)) :
    k0_pay2 (F := Ideal) acc a w (ix2 p q) = acc (ix2 p q) + part (term m c R C) s :=
  (Entries.step_apply acc a w p q).trans (congrArg (fun z => acc (ix2 p q) + z)
    (Finset.sum_congr rfl fun k _ => congrArg₂ (· * ·) (ha k) (hw k)))

/-! ## What the points leave, as the body's stored values of the blocks -/

/-- A first point of a run leaves, in the accumulator, one step from the reset value. -/
theorem scr_first (c : Dev nD) (t : Fin cfg0.N) (h0 : t.val % 4 = 0) (h1 : ¬t.val % 4 = 3) :
    (outsAt0 m c t.val t.isLt).2 = k0_pay2 (F := Ideal) (k0_pay1 (F := Ideal)) (iblk m c 0 t) (iblk m c 1 t) := by
  rw [outsAt0_A m c t h0 h1]; dsimp only
  exact Steps.acc_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)

/-- A middle point leaves one step from what the point before left. -/
theorem scr_next (c : Dev nD) (t : Fin cfg0.N) (h0 : ¬t.val % 4 = 0) (h1 : ¬t.val % 4 = 3) :
    (outsAt0 m c t.val t.isLt).2 = k0_pay2 (F := Ideal) (outsAt0 m c (t.val - 1) (Nat.lt_of_le_of_lt (Nat.sub_le _ _) t.isLt)).2 (iblk m c 0 t) (iblk m c 1 t) := by
  rw [outsAt0_B m c t h0 h1]; dsimp only
  exact Steps.acc_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2

/-- A last point stores, into the output block, one step from what the point before left, plus the bias row. -/
theorem out_last (c : Dev nD) (t : Fin cfg0.N) (h0 : ¬t.val % 4 = 0) (h1 : t.val % 4 = 3) :
    out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2
      = k0_pay3 (F := Ideal) (k0_pay2 (F := Ideal) (outsAt0 m c (t.val - 1) (Nat.lt_of_le_of_lt (Nat.sub_le _ _) t.isLt)).2 (iblk m c 0 t) (iblk m c 1 t)) (iblk m c 2 t) :=
  Steps.out_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2

/-! ## The accumulator's entry after each of the first three points, and the stored entry -/

/-- After the first point of a run the accumulator holds zero plus the first partial sum. -/
theorem after_first (c : Dev nD) (t : Fin cfg0.N) (bi : Fin 8) (bj : Fin 4) (ht : t.val = 16 * bi.val + 4 * bj.val + 0)
    (p q : Fin 1024) :
    (outsAt0 m c t.val t.isLt).2 (ix2 p q) = 0 + part (term m c (row bi p) (col bj q)) 0 := by
  have h0 : t.val % 4 = 0 := by omega
  have h1 : ¬t.val % 4 = 3 := by omega
  rw [scr_first m c t h0 h1]
  refine (step_entry m c (k0_pay1 (F := Ideal)) (iblk m c 0 t) (iblk m c 1 t) (row bi p) (col bj q) 0 p q
    (fun k => act_at m c t bi bj 0 ht p k) (fun k => wt_at m c t bi bj 0 ht k q)).trans ?_
  exact congrArg (fun z => z + part (term m c (row bi p) (col bj q)) 0) (Entries.reset_apply (ix2 p q))

/-- After the second point it holds that plus the second partial sum. -/
theorem after_second (c : Dev nD) (t : Fin cfg0.N) (bi : Fin 8) (bj : Fin 4) (ht : t.val = 16 * bi.val + 4 * bj.val + 1)
    (p q : Fin 1024) :
    (outsAt0 m c t.val t.isLt).2 (ix2 p q)
      = (0 + part (term m c (row bi p) (col bj q)) 0) + part (term m c (row bi p) (col bj q)) 1 := by
  have h0 : ¬t.val % 4 = 0 := by omega
  have h1 : ¬t.val % 4 = 3 := by omega
  rw [scr_next m c t h0 h1]
  refine (step_entry m c (outsAt0 m c (t.val - 1) (Nat.lt_of_le_of_lt (Nat.sub_le _ _) t.isLt)).2 (iblk m c 0 t) (iblk m c 1 t) (row bi p) (col bj q) 1 p q
    (fun k => act_at m c t bi bj 1 ht p k) (fun k => wt_at m c t bi bj 1 ht k q)).trans ?_
  exact congrArg (fun z => z + part (term m c (row bi p) (col bj q)) 1)
    (after_first m c ⟨t.val - 1, Nat.lt_of_le_of_lt (Nat.sub_le _ _) t.isLt⟩ bi bj (by show t.val - 1 = _; omega) p q)

/-- After the third point it holds that plus the third partial sum. -/
theorem after_third (c : Dev nD) (t : Fin cfg0.N) (bi : Fin 8) (bj : Fin 4) (ht : t.val = 16 * bi.val + 4 * bj.val + 2)
    (p q : Fin 1024) :
    (outsAt0 m c t.val t.isLt).2 (ix2 p q)
      = ((0 + part (term m c (row bi p) (col bj q)) 0) + part (term m c (row bi p) (col bj q)) 1)
          + part (term m c (row bi p) (col bj q)) 2 := by
  have h0 : ¬t.val % 4 = 0 := by omega
  have h1 : ¬t.val % 4 = 3 := by omega
  rw [scr_next m c t h0 h1]
  refine (step_entry m c (outsAt0 m c (t.val - 1) (Nat.lt_of_le_of_lt (Nat.sub_le _ _) t.isLt)).2 (iblk m c 0 t) (iblk m c 1 t) (row bi p) (col bj q) 2 p q
    (fun k => act_at m c t bi bj 2 ht p k) (fun k => wt_at m c t bi bj 2 ht k q)).trans ?_
  exact congrArg (fun z => z + part (term m c (row bi p) (col bj q)) 2)
    (after_second m c ⟨t.val - 1, Nat.lt_of_le_of_lt (Nat.sub_le _ _) t.isLt⟩ bi bj (by show t.val - 1 = _; omega) p q)

/-- What the fourth point stores into the output block, at (p, q): the layer at row R and column C. -/
theorem stored_entry (c : Dev nD) (t : Fin cfg0.N) (bi : Fin 8) (bj : Fin 4) (ht : t.val = 16 * bi.val + 4 * bj.val + 3)
    (h0 : ¬t.val % 4 = 0) (h1 : t.val % 4 = 3) (p q : Fin 1024) :
    out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2 (ix2 p q)
      = dense (acts m c) (wts m c) (bias m c) (ix2 (row bi p) (col bj q)) := by
  rw [out_last m c t h0 h1]
  refine (Entries.final_apply (k0_pay2 (F := Ideal) (outsAt0 m c (t.val - 1) (Nat.lt_of_le_of_lt (Nat.sub_le _ _) t.isLt)).2 (iblk m c 0 t) (iblk m c 1 t)) (iblk m c 2 t) p q).trans ?_
  have hacc := (step_entry m c (outsAt0 m c (t.val - 1) (Nat.lt_of_le_of_lt (Nat.sub_le _ _) t.isLt)).2 (iblk m c 0 t) (iblk m c 1 t) (row bi p) (col bj q) 3 p q
      (fun k => act_at m c t bi bj 3 ht p k) (fun k => wt_at m c t bi bj 3 ht k q)).trans
    (congrArg (fun z => z + part (term m c (row bi p) (col bj q)) 3)
      (after_third m c ⟨t.val - 1, Nat.lt_of_le_of_lt (Nat.sub_le _ _) t.isLt⟩ bi bj (by show t.val - 1 = _; omega) p q))
  refine (congrArg₂ (· + ·) hacc (bias_at m c t bi bj 3 ht q)).trans ?_
  rw [runs_sum]
  rfl

end Cert.KernelIdeal.Accum

end
-- ==== Proof.KernelValue.lean ====
/-
  The kernel's result array, whole. Only the last point of each run of four writes its output block back, and what it
  writes is block (t / 16, (t / 4) % 4) of the layer `dense` of the activations, the transposed weights and the bias.
  The 32 blocks written tile the 8192 x 4096 result: the entry at row R and column C lies in the block of the point
  16 (R / 1024) + 4 (C / 1024) + 3. So the result array ends holding the layer.
-/
import proofs.«128499_j12713103196329_1_alg».proof.Proof.Accum

noncomputable section

open Idealize.ShloMosaic Idealize.ShloMosaic.TcCoe Idealize.SL.Sem
open Idealize.ShloMosaic.Pipeline (Dat)

namespace Cert.KernelIdeal.Result

open Cert.KernelIdeal Cert.KernelIdeal.Gen Idealize.ShloMosaic.ValueIdx Cert.SparseLinear

variable (m : (ℓ : Loc nD τ sig) → Buf (Elt Ideal) ℓ) (ρ : Dev nD → PrngReg)

/-- Two functions on a 1024 x 1024 block that agree at every (p, q) are equal. -/
theorem blk_ext (f g : S1024x1024.Idx → EReal) (h : ∀ p q : Fin 1024, f (ix2 p q) = g (ix2 p q)) : f = g :=
  funext fun j => by rw [eq_ix2 j]; exact h _ _

/-- The layer of the activations, the transposed weights and the bias of core c. -/
abbrev result (c : Dev nD) : (⟨2, ![8192, 4096]⟩ : Shape).Idx → EReal :=
  dense (Accum.acts m c) (Accum.wts m c) (Accum.bias m c)

/-- What a writing point writes back is its block of the layer. -/
theorem flushed_eq (c : Dev nD) (t : Fin cfg0.N) (hf : (cfg0.win 3).flush t = true) :
    (dats m 0 c).flushed 3 t = ((cfg0.win 3).blk t).view.read (Elt Ideal) (result m c) := by
  have h1 : t.val % 4 = 3 := (flush0_3 t).mp hf
  have h0 : ¬t.val % 4 = 0 := by omega
  have hN : t.val < 128 := lt_of_lt_of_eq t.isLt (show cfg0.N = 128 from N_0)
  rw [Value.flushed3_C m c t h0 h1]
  refine blk_ext _ _ fun p q => ?_
  obtain ⟨-, -, -, -, -, -, e0, e1⟩ := Blocks.idx_facts t
  show out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2 (ix2 p q)
    = result m c (((cfg0.win 3).blk t).view.emb (ix2 p q))
  rw [Accum.stored_entry m c t ⟨t.val / 16, by omega⟩ ⟨t.val / 4 % 4, by omega⟩
    (by show t.val = 16 * (t.val / 16) + 4 * (t.val / 4 % 4) + 3; omega) h0 h1 p q]
  refine congrArg (result m c) (funext fun a => Fin.ext ?_)
  match a with
  | ⟨0, _⟩ => show 1024 * (t.val / 16) + p.val = win0_3.index t (0 : Fin 2) * 1024 + 1 * p.val; rw [e0]; omega
  | ⟨1, _⟩ => show 1024 * (t.val / 4 % 4) + q.val = win0_3.index t (1 : Fin 2) * 1024 + 1 * q.val; rw [e1]; omega

/-- An entry of the result is in point t's block iff each coordinate is in the block's range on its axis. -/
theorem mem_blk (t : Fin cfg0.N) (i : S8192x4096.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v19).slice (win0_3.rect t)).set ↔ _
  rw [View.set_slice_whole, Rect.mem_set_unit]
  exact Iff.rfl

/-- Every entry of the result is in the block of some writing point. -/
theorem cover (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  have hN : cfg0.N = 128 := N_0
  obtain ⟨t, tv⟩ : ∃ t : Fin cfg0.N, t.val = 16 * ((i 0).val / 1024) + 4 * ((i 1).val / 1024) + 3 :=
    ⟨⟨16 * ((i 0).val / 1024) + 4 * ((i 1).val / 1024) + 3, by rw [hN]; omega⟩, rfl⟩
  refine ⟨t, (flush0_3 t).mpr (by omega), ?_⟩
  rw [mem_blk]
  obtain ⟨-, -, -, -, -, -, e0, e1⟩ := Blocks.idx_facts t
  intro a
  match a with
  | ⟨0, _⟩ =>
    show win0_3.index t (0 : Fin 2) * 1024 ≤ (i 0).val ∧ (i 0).val < win0_3.index t (0 : Fin 2) * 1024 + 1024
    rw [e0]; omega
  | ⟨1, _⟩ =>
    show win0_3.index t (1 : Fin 2) * 1024 ≤ (i 1).val ∧ (i 1).val < win0_3.index t (1 : Fin 2) * 1024 + 1024
    rw [e1]; omega

/-- The result array after the run is the layer. -/
theorem final (c : Dev nD) : (dats m 0 c).arrAt 3 cfg0.N = result m c :=
  (dats m 0 c).arrAt_eq_of_cover 3 (result m c) (flushed_eq m c) cover

/-- The kernel's run: every weakly fair execution ends with the result array at the layer and the arguments as
    they were. -/
theorem run : θ_run defs (onTc (τ := τ) (main (F := Ideal))) ⟨m, fun _ => 0, ρ⟩ fun r => ∀ c : Dev nD,
      r.2.mem ((c : Thread nD τ).loc main_v19) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Result

end
-- ==== Proof.lean ====
/-
  A sparse linear layer: a weight array scattered from its nonzero values, then out = x times its transpose plus a
  bias. The kernel computes the product in 1024 x 1024 blocks over an 8 x 4 x 4 grid, the inner dimension in four
  runs of 1024 accumulated in a scratch block that is reset at the first run and, after the last, stored with the
  bias added; the reference computes one whole product and adds the bias broadcast down the rows.

  On the extended reals both are the layer

      dense x wt b (i, j) = (the sum over k < 4096 of x (i, k) * wt (k, j)) + b j,

  where wt is the transposed scattered weight array, which both programs build by the same host operations and
  which the proof never looks inside. The kernel's side: each stored value of the body read at an entry (a product
  into a zero accumulator is a finite sum; a change of float format is the identity), the accumulator after each of
  the first three points of a run, the block the fourth point writes back, and the 32 written blocks tiling the
  result. The two sides meet by one law: four runs of 1024 terms added one after the other to zero are the sum of all
  4096 terms, which holds on the extended reals because their addition is commutative and associative — no
  finiteness of the inputs is used. The idealization of the kernel rewrote no operation, so the claim that relates the
  kernel to its idealization is trivial.
-/
import proofs.«128499_j12713103196329_1_alg».proof.Defs
import proofs.«128499_j12713103196329_1_alg».proof.Proof.Gen.Kernel
import proofs.«128499_j12713103196329_1_alg».proof.Proof.Gen.Kernel.Frame
import proofs.«128499_j12713103196329_1_alg».proof.Proof.Gen.KernelIdeal
import proofs.«128499_j12713103196329_1_alg».proof.Proof.Gen.KernelIdeal.Frame
import proofs.«128499_j12713103196329_1_alg».proof.Proof.Gen.KernelIdeal.Value
import proofs.«128499_j12713103196329_1_alg».proof.Proof.Gen.ReferenceIdeal
import proofs.«128499_j12713103196329_1_alg».proof.Proof.Gen.ReferenceIdeal.Run
import proofs.«128499_j12713103196329_1_alg».proof.Proof.Gen.Pre_finite_inputs
import proofs.«128499_j12713103196329_1_alg».proof.Proof.RefValue
import proofs.«128499_j12713103196329_1_alg».proof.Proof.KernelValue
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

set_option maxHeartbeats 2000000 in
/-- From arguments that agree, the kernel's result array ends at the layer of x, the transposed weights and the bias,
    and the reference's at its product plus the broadcast bias, which is the same layer; the two transposed weight
    arrays are one term of the same host operations on the same arguments. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  rw [Cert.ReferenceIdeal.Layer.result_dense]
  refine congrArg (fun w => Cert.SparseLinear.dense _ w _) ?_
  refine Eq.trans ?_ (Cert.KernelIdeal.Blocks.weightsT_eq m c).symm
  dsimp only [Cert.KernelIdeal.Gen.V, Cert.KernelIdeal.Gen.hostOps0]
  after_results_simp
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
